-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2000x512 : Shape := ⟨3, ![64, 2000, 512]⟩
abbrev S64x2 : Shape := ⟨2, ![64, 2]⟩
abbrev S_ : Shape := ⟨0, ![]⟩

class Facts : Prop where
  bcast_S_S64x2000x512 : S_.BroadcastsInDim S64x2000x512 (![] : Fin 0 → Fin S64x2000x512.rank)
  reducesTo_S64x2000x512_S_d0_1_2 : S64x2000x512.ReducesTo [0, 1, 2] S_
  h_S_ : 0 < S_.numel

variable [Facts]

def fn {F : FTy → Type} [FloatOps F] (main_arg0 : FVec F S64x2000x512 .f32) (main_arg1 : IVec S64x2 32) (main_arg2 : IVec S64x2 32) : IVec S_ 1 :=
  let main_v0 : FVec F S64x2000x512 .f32 := Host.absf main_arg0
  let main_cst : FVec F S_ .f32 := constant S_ .f32 0x7F800000#32
  let main_v1 : FVec F S64x2000x512 .f32 := broadcastInDim S64x2000x512 ![] bcast_S_S64x2000x512 main_cst
  let main_v2 : IVec S64x2000x512 1 := cmpf .olt main_v0 main_v1
  let main_c : IVec S_ 1 := constantI S_ 1 1#1
  let main_v3 : IVec S_ 1 := (fun x v => Host.reduce IntOp.andi x v reducesTo_S64x2000x512_S_d0_1_2 h_S_) main_v2 main_c
  main_v3
-- ==== Kernel.lean ====
abbrev S64x2000x512 : Shape := ⟨3, ![64, 2000, 512]⟩
abbrev S64x2 : Shape := ⟨2, ![64, 2]⟩
abbrev S512 : Shape := ⟨1, ![512]⟩
abbrev S1x1x512 : Shape := ⟨3, ![1, 1, 512]⟩
abbrev S64x2x1 : Shape := ⟨3, ![64, 2, 1]⟩
abbrev S64x2x512 : Shape := ⟨3, ![64, 2, 512]⟩
abbrev S_ : Shape := ⟨0, ![]⟩
abbrev S64x512 : Shape := ⟨2, ![64, 512]⟩
abbrev S64x1x512 : Shape := ⟨3, ![64, 1, 512]⟩
abbrev S2x2000x512 : Shape := ⟨3, ![2, 2000, 512]⟩
abbrev S2x1x512 : Shape := ⟨3, ![2, 1, 512]⟩

abbrev nBuf : Space → Nat
  | .hbm => 22
  | .vmem => 6
  | .smem => 0
  | _ => 0

abbrev bufTy : (tb : Table) → Fin (tcTables nBuf tb) → BufTy
  | .hbm, ⟨0, _⟩ => ⟨S64x2000x512, .f32⟩
  | .hbm, ⟨1, _⟩ => ⟨S64x2, .i32⟩
  | .hbm, ⟨2, _⟩ => ⟨S64x2, .i32⟩
  | .hbm, ⟨3, _⟩ => ⟨S512, .i32⟩
  | .hbm, ⟨4, _⟩ => ⟨S1x1x512, .i32⟩
  | .hbm, ⟨5, _⟩ => ⟨S64x2x1, .i32⟩
  | .hbm, ⟨6, _⟩ => ⟨S64x2x512, .i32⟩
  | .hbm, ⟨7, _⟩ => ⟨S64x2x512, .i32⟩
  | .hbm, ⟨8, _⟩ => ⟨S64x2x512, .i1⟩
  | .hbm, ⟨9, _⟩ => ⟨S1x1x512, .i32⟩
  | .hbm, ⟨10, _⟩ => ⟨S64x2, .i32⟩
  | .hbm, ⟨11, _⟩ => ⟨S64x2x1, .i32⟩
  | .hbm, ⟨12, _⟩ => ⟨S64x2x512, .i32⟩
  | .hbm, ⟨13, _⟩ => ⟨S64x2x512, .i32⟩
  | .hbm, ⟨14, _⟩ => ⟨S64x2x512, .i1⟩
  | .hbm, ⟨15, _⟩ => ⟨S64x2x512, .i1⟩
  | .hbm, ⟨16, _⟩ => ⟨S_, .i1⟩
  | .hbm, ⟨17, _⟩ => ⟨S64x512, .i1⟩
  | .hbm, ⟨18, _⟩ => ⟨S64x512, .i1⟩
  | .hbm, ⟨19, _⟩ => ⟨S64x512, .f32⟩
  | .hbm, ⟨20, _⟩ => ⟨S64x1x512, .f32⟩
  | .hbm, ⟨21, _⟩ => ⟨S64x2000x512, .f32⟩
  | .local _ .vmem, ⟨0, _⟩ => ⟨S2x2000x512, .f32⟩
  | .local _ .vmem, ⟨1, _⟩ => ⟨S2x2000x512, .f32⟩
  | .local _ .vmem, ⟨2, _⟩ => ⟨S2x1x512, .f32⟩
  | .local _ .vmem, ⟨3, _⟩ => ⟨S2x1x512, .f32⟩
  | .local _ .vmem, ⟨4, _⟩ => ⟨S2x2000x512, .f32⟩
  | .local _ .vmem, ⟨5, _⟩ => ⟨S2x2000x512, .f32⟩
  | _, _ => ⟨S64x2000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S512_S1x1x512_2 : S512.BroadcastsInDim S1x1x512 (![2] : Fin 1 → Fin S1x1x512.rank)
  bcast_S64x2_S64x2x1_0_1 : S64x2.BroadcastsInDim S64x2x1 (![0, 1] : Fin 2 → Fin S64x2x1.rank)
  bcast_S1x1x512_S64x2x512_0_1_2 : S1x1x512.BroadcastsInDim S64x2x512 (![0, 1, 2] : Fin 3 → Fin S64x2x512.rank)
  bcast_S64x2x1_S64x2x512_0_1_2 : S64x2x1.BroadcastsInDim S64x2x512 (![0, 1, 2] : Fin 3 → Fin S64x2x512.rank)
  reducesTo_S64x2x512_S64x512_d1 : S64x2x512.ReducesTo [1] S64x512
  h_S_ : 0 < S_.numel
  bcast_S64x512_S64x1x512_0_2 : S64x512.BroadcastsInDim S64x1x512 (![0, 2] : Fin 2 → Fin S64x1x512.rank)
  inb_S2x2000x512_S2x2000x512_0_0_0 : ∀ a, (![0, 0, 0] : Fin 3 → Nat) a + S2x2000x512.size a ≤ S2x2000x512.size a
  h_S2x2000x512 : 0 < S2x2000x512.numel
  inb_S2x1x512_S2x1x512_0_0_0 : ∀ a, (![0, 0, 0] : Fin 3 → Nat) a + S2x1x512.size a ≤ S2x1x512.size a
  h_S2x1x512 : 0 < S2x1x512.numel
  shapeCasts_S2x1x512_S2x1x512 : S2x1x512.ShapeCasts S2x1x512
  broadcasts_S2x1x512_S2x2000x512 : S2x1x512.Broadcasts S2x2000x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2000x512.size a ≤ S64x2000x512.size a
  hwx0_0 : ∀ i : grid0.Coords, EltTy.bits .f32 = 32 ∨ (Rect.block (s := S64x2000x512) S2x2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x512.size a ≤ S64x1x512.size a
  hwx0_1 : ∀ i : grid0.Coords, EltTy.bits .f32 = 32 ∨ (Rect.block (s := S64x1x512) S2x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x2000x512.size a ≤ S64x2000x512.size a
  hwx0_2 : ∀ i : grid0.Coords, EltTy.bits .f32 = 32 ∨ (Rect.block (s := S64x2000x512) S2x2000x512.size (cc0_transform_2 i) (hinb0_2 i)).WholeWords (EltTy.packing .f32)

variable [Facts₀]

abbrev win0_0 : Pipeline.Window sig grid0 :=
  Pipeline.Window.ofSpec (Memref.whole main_arg0) S2x2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2x2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x2000x512 : Shape := ⟨3, ![64, 2000, 512]⟩
abbrev S64x2 : Shape := ⟨2, ![64, 2]⟩
abbrev S512 : Shape := ⟨1, ![512]⟩
abbrev S1x1x512 : Shape := ⟨3, ![1, 1, 512]⟩
abbrev S64x2x1 : Shape := ⟨3, ![64, 2, 1]⟩
abbrev S64x2x512 : Shape := ⟨3, ![64, 2, 512]⟩
abbrev S_ : Shape := ⟨0, ![]⟩
abbrev S64x512 : Shape := ⟨2, ![64, 512]⟩
abbrev S64x1x512 : Shape := ⟨3, ![64, 1, 512]⟩

abbrev nBuf : Space → Nat
  | .hbm => 23
  | .vmem => 0
  | .smem => 0
  | _ => 0

abbrev bufTy : (tb : Table) → Fin (tcTables nBuf tb) → BufTy
  | .hbm, ⟨0, _⟩ => ⟨S64x2000x512, .f32⟩
  | .hbm, ⟨1, _⟩ => ⟨S64x2, .i32⟩
  | .hbm, ⟨2, _⟩ => ⟨S64x2, .i32⟩
  | .hbm, ⟨3, _⟩ => ⟨S512, .i32⟩
  | .hbm, ⟨4, _⟩ => ⟨S1x1x512, .i32⟩
  | .hbm, ⟨5, _⟩ => ⟨S64x2x1, .i32⟩
  | .hbm, ⟨6, _⟩ => ⟨S64x2x512, .i32⟩
  | .hbm, ⟨7, _⟩ => ⟨S64x2x512, .i32⟩
  | .hbm, ⟨8, _⟩ => ⟨S64x2x512, .i1⟩
  | .hbm, ⟨9, _⟩ => ⟨S1x1x512, .i32⟩
  | .hbm, ⟨10, _⟩ => ⟨S64x2, .i32⟩
  | .hbm, ⟨11, _⟩ => ⟨S64x2x1, .i32⟩
  | .hbm, ⟨12, _⟩ => ⟨S64x2x512, .i32⟩
  | .hbm, ⟨13, _⟩ => ⟨S64x2x512, .i32⟩
  | .hbm, ⟨14, _⟩ => ⟨S64x2x512, .i1⟩
  | .hbm, ⟨15, _⟩ => ⟨S64x2x512, .i1⟩
  | .hbm, ⟨16, _⟩ => ⟨S_, .i1⟩
  | .hbm, ⟨17, _⟩ => ⟨S64x512, .i1⟩
  | .hbm, ⟨18, _⟩ => ⟨S64x512, .i1⟩
  | .hbm, ⟨19, _⟩ => ⟨S64x1x512, .i1⟩
  | .hbm, ⟨20, _⟩ => ⟨S64x1x512, .f32⟩
  | .hbm, ⟨21, _⟩ => ⟨S64x2000x512, .f32⟩
  | .hbm, ⟨22, _⟩ => ⟨S64x2000x512, .f32⟩
  | _, _ => ⟨S64x2000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S64x2_S64x2x1_0_1 : S64x2.BroadcastsInDim S64x2x1 (![0, 1] : Fin 2 → Fin S64x2x1.rank)
  bcast_S1x1x512_S64x2x512_0_1_2 : S1x1x512.BroadcastsInDim S64x2x512 (![0, 1, 2] : Fin 3 → Fin S64x2x512.rank)
  bcast_S64x2x1_S64x2x512_0_1_2 : S64x2x1.BroadcastsInDim S64x2x512 (![0, 1, 2] : Fin 3 → Fin S64x2x512.rank)
  reducesTo_S64x2x512_S64x512_d1 : S64x2x512.ReducesTo [1] S64x512
  h_S_ : 0 < S_.numel
  bcast_S64x512_S64x1x512_0_2 : S64x512.BroadcastsInDim S64x1x512 (![0, 2] : Fin 2 → Fin S64x1x512.rank)
  bcast_S64x1x512_S64x2000x512_0_1_2 : S64x1x512.BroadcastsInDim S64x2000x512 (![0, 1, 2] : Fin 3 → Fin S64x2000x512.rank)

variable [Facts₀]

class Facts : Prop extends Facts₀ where

variable [Facts]
-- ==== Proof.Stripes.lean ====
/-
  Frequency-stripe masking of a batch of spectrograms, stated once as a function.

  A batch `x` has one entry for every (batch element b, time step t, frequency bin f): 64 × 2000 × 512 of them.
  A keep row `w` has one weight for every (b, f), laid out 64 × 1 × 512; it is 0 on the bins of b that one of b's
  dropped stripes [bgn, bgn + distance) contains and 1 on the others.  The masked batch multiplies entry (b, t, f)
  of `x` by the weight at (b, 0, f): time plays no part in the weight.

  Both programs of this certificate compute this one function of the same `x` and the same `w`, so nothing below
  depends on what the weights are, and no law of the extended reals is used beyond the product being a function of
  its two factors (in particular nothing asks the entries of `x` to be finite).
-/
import Idealize.ShloMosaic.PureOps

namespace Cert.Stripes

open Idealize.ShloMosaic

/-- batch × time × frequency. -/
abbrev Batch : Shape := ⟨3, ![64, 2000, 512]⟩

/-- batch × 1 × frequency: one keep weight per batch element and frequency bin. -/
abbrev Row : Shape := ⟨3, ![64, 1, 512]⟩

/-- Where entry (b, t, f) finds its keep weight: at (b, 0, f). -/
abbrev rowOf (i : Batch.Idx) : Row.Idx := fun a => match a with
  | ⟨0, _⟩ => ⟨(i 0).val, (i 0).isLt⟩
  | ⟨1, _⟩ => ⟨0, Nat.one_pos⟩
  | ⟨2, _⟩ => ⟨(i 2).val, (i 2).isLt⟩

/-- The masked batch: entry (b, t, f) of `x` times the keep weight at (b, 0, f). -/
def masked {F : FTy → Type} [FloatOps F] (x : Batch.Idx → F .f32) (w : Row.Idx → F .f32) : Batch.Idx → F .f32 :=
  fun i => FloatOps.mulf (x i) (w (rowOf i))

theorem masked_apply {F : FTy → Type} [FloatOps F] (x : Batch.Idx → F .f32) (w : Row.Idx → F .f32) (i : Batch.Idx) :
    masked x w i = FloatOps.mulf (x i) (w (rowOf i)) := rfl

end Cert.Stripes
-- ==== Proof.RefMasked.lean ====
/-
  The reference computes the masked batch.

  Its last three operations spread the keep row over the time axis (entry (b, t, f) of the spread array is the row's
  entry (b, 0, f)) and multiply by `x` entry by entry; read at an index that is the masked batch of `x` and the
  keep row.  The keep row itself — the weights 0 / 1 computed from `bgn` and `distance` by comparisons, an "or" over
  the two stripes, a negation and a conversion to a float — is left as the reference's own stage: the kernel's
  program builds the same row, and the two are compared as wholes, never opened.
-/
import proofs.«115708_j72507637891182_1_alg».proof.Proof.Gen.ReferenceIdeal.Read
import proofs.«115708_j72507637891182_1_alg».proof.Proof.Stripes

noncomputable section

namespace Cert.ReferenceIdeal.Masked

open Cert.ReferenceIdeal Cert.ReferenceIdeal.Read Idealize.ShloMosaic Cert.Stripes

variable {F : FTy → Type} [FloatOps F]

/-- The index at which the spread row is read is the keep weight's place (b, 0, f). -/
theorem idx_spread (i : S64x2000x512.Idx) : idx_main_v17 i = rowOf i :=
  funext fun a => by match a with | ⟨0, _⟩ => rfl | ⟨1, _⟩ => rfl | ⟨2, _⟩ => rfl

/-- The reference's result is the masked batch of `x` and the keep row of `bgn` and `distance`. -/
theorem result_eq (x : (⟨S64x2000x512, .f32⟩ : BufTy).Contents (Elt F)) (bgn dist : (⟨S64x2, .i32⟩ : BufTy).Contents (Elt F)) :
    val_main_v18 (F := F) x bgn dist = masked x (val_main_v16 (F := F) bgn dist) := by
  funext i
  rw [val_main_v18_apply, val_main_v17_apply, idx_spread]
  rfl

end Cert.ReferenceIdeal.Masked

end
-- ==== Proof.KernelRow.lean ====
/-
  The keep row the kernel's region finds.

  Before its one region the kernel's program computes the keep weights from `bgn` and `distance` with the same
  comparisons, the same "or" over the two stripes and the same negation as the reference, converts them to floats and
  only then lays them out as 64 × 1 × 512, where the reference lays the bits out first and converts afterwards.  A
  conversion entry by entry and a re-layout commute — both orders give, at (b, 0, f), the converted bit of (b, f) —
  so the array the region's second window reads is exactly the reference's keep row.
-/
import proofs.«115708_j72507637891182_1_alg».proof.Proof.Gen.KernelIdeal.Frame
import proofs.«115708_j72507637891182_1_alg».proof.Proof.Gen.ReferenceIdeal.Read

noncomputable section

namespace Cert.KernelIdeal.Row

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- When the region is entered, its second window's array holds the reference's keep row of the launch contents of
    `bgn` and `distance`. -/
theorem entry_row (c : Dev nD) :
    (V m c main_v16 : S64x1x512.Idx → F .f32)
      = Cert.ReferenceIdeal.Read.val_main_v16 (F := F) (m ((c : Thread nD τ).loc main_arg1)) (m ((c : Thread nD τ).loc main_arg2)) := by
  dsimp only [V, hostOps0]
  after_results
  rfl

end Cert.KernelIdeal.Row

end
-- ==== Proof.KernelBlocks.lean ====
/-
  The kernel's output array, assembled from its blocks.

  The region runs over 32 grid points; point `t` stages batch elements 2t and 2t + 1 — a 2 × 2000 × 512 block of `x`
  and the 2 × 1 × 512 block of the keep row for the same two batch elements — and writes back the 2 × 2000 × 512 block
  of the output at the same place.  Inside a block, entry (p, t', f) of the result is entry (p, t', f) of the block
  of `x` times entry (p, 0, f) of the block of the row.  A block's entry (p, t', f) sits at (2t + p, t', f) of its
  array, so what a point writes back is the block of the masked batch, and since every batch element b lies in the
  block of point b / 2, the 32 blocks cover the array: after the run the output array is the masked batch of the
  launch contents of `x` and the keep row the region found.
-/
import proofs.«115708_j72507637891182_1_alg».proof.Proof.Gen.KernelIdeal.Value
import proofs.«115708_j72507637891182_1_alg».proof.Proof.Stripes
import proofs.«115708_j72507637891182_1_alg».proof.Proof.KernelRow

noncomputable section

namespace Cert.KernelIdeal.Masked

open Cert.KernelIdeal Cert.KernelIdeal.Gen Cert.KernelIdeal.Value Idealize.ShloMosaic Idealize.ShloMosaic.TcCoe Idealize.SL.Sem
open Idealize.ShloMosaic.Pipeline (Dat)
open Cert.Stripes

variable {F : FTy → Type} [FloatOps F]
variable (m : (ℓ : Loc nD τ sig) → Buf (Elt F) ℓ) (ρ : Dev nD → PrngReg)

/-- The body's loads and its store start at the corner of their buffers. -/
theorem corner : (![0, 0, 0] : Fin 3 → Nat) = fun _ => 0 := funext fun a => by fin_cases a <;> rfl

/-- What the body leaves in the output block, entry by entry: entry `y = (p, t', f)` of the block of `x` times entry
    (p, 0, f) of the block of the keep row. -/
theorem out_apply (x0 : Vec F S2x2000x512 .f32) (x1 : Vec F S2x1x512 .f32) (y : S2x2000x512.Idx) :
    out0_2 x0 x1 y = FloatOps.mulf (x0 (ix2_0 y)) (x1 (ix2_1 y)) := by
  unfold out0_2
  rw [canon2_eq]
  show FloatOps.mulf ((View.ld x0 r0_0) (ix2_0 y)) ((View.ld x1 r0_1) (ix2_1 y)) = _
  rw [View.ld_unit_zero (S := S2x2000x512) corner, View.ld_unit_zero (S := S2x1x512) corner]

/-- The three windows' blocks at a point, decided over the 32 points: all three move along the batch axis together
    (block index `t`) and stay at 0 on the time and frequency axes. -/
theorem idx_facts : ∀ t : Fin cfg0.N,
    win0_0.index t (0 : Fin 3) = win0_2.index t (0 : Fin 3)
    ∧ win0_0.index t (1 : Fin 3) = win0_2.index t (1 : Fin 3)
    ∧ win0_0.index t (2 : Fin 3) = win0_2.index t (2 : Fin 3)
    ∧ win0_1.index t (0 : Fin 3) = win0_2.index t (0 : Fin 3)
    ∧ win0_1.index t (1 : Fin 3) = 0
    ∧ win0_1.index t (2 : Fin 3) = 0
    ∧ win0_2.index t (1 : Fin 3) = 0
    ∧ win0_2.index t (2 : Fin 3) = 0
    ∧ win0_2.index t (0 : Fin 3) ≤ 31 :=
  (by decide +kernel : ∀ t : Fin grid0.N, _)

/-- Every pair of batch elements (2q, 2q + 1) is some point's block. -/
theorem idx_onto : ∀ q : Fin 32, ∃ t : Fin cfg0.N, win0_2.index t = ![q.val, 0, 0] :=
  (by decide +kernel : ∀ q : Fin 32, ∃ t : Fin grid0.N, win0_2.index t = ![q.val, 0, 0])

/-- What point `t` writes back is block `t` of the masked batch of the arrays the region found. -/
theorem flushed_eq (c : Dev nD) (t : Fin cfg0.N) :
    (dats m 0 c).flushed 2 t
      = ((cfg0.win 2).blk t).view.read (Elt F) (masked (V m c main_arg0) (V m c main_v16)) := by
  rw [flushed2]
  obtain ⟨e0, e1, e2, e3, e4, e5, e6, e7, -⟩ := idx_facts t
  funext j
  have hj0 : (j 0).val < 2 := (j 0).isLt
  have hj1 : (j 1).val < 2000 := (j 1).isLt
  have hj2 : (j 2).val < 512 := (j 2).isLt
  show out0_2 (iblk m c 0 t) (iblk m c 1 t) j = _
  refine (out_apply (iblk m c 0 t) (iblk m c 1 t) j).trans ?_
  show FloatOps.mulf (V m c main_arg0 (((cfg0.win 0).blk t).view.emb (ix2_0 j))) (V m c main_v16 (((cfg0.win 1).blk t).view.emb (ix2_1 j)))
    = FloatOps.mulf (V m c main_arg0 (((cfg0.win 2).blk t).view.emb j)) (V m c main_v16 (rowOf (((cfg0.win 2).blk t).view.emb j)))
  have h0 : ((cfg0.win 0).blk t).view.emb (ix2_0 j) = ((cfg0.win 2).blk t).view.emb j := by
    funext a; apply Fin.ext
    match a with
    | ⟨0, _⟩ => show win0_0.index t (0 : Fin 3) * 2 + 1 * (j 0).val = win0_2.index t (0 : Fin 3) * 2 + 1 * (j 0).val; omega
    | ⟨1, _⟩ => show win0_0.index t (1 : Fin 3) * 2000 + 1 * (j 1).val = win0_2.index t (1 : Fin 3) * 2000 + 1 * (j 1).val; omega
    | ⟨2, _⟩ => show win0_0.index t (2 : Fin 3) * 512 + 1 * (j 2).val = win0_2.index t (2 : Fin 3) * 512 + 1 * (j 2).val; omega
  have h1 : ((cfg0.win 1).blk t).view.emb (ix2_1 j) = rowOf (((cfg0.win 2).blk t).view.emb j) := by
    funext a; apply Fin.ext
    match a with
    | ⟨0, _⟩ => show win0_1.index t (0 : Fin 3) * 2 + 1 * (j 0).val = win0_2.index t (0 : Fin 3) * 2 + 1 * (j 0).val; omega
    | ⟨1, _⟩ => show win0_1.index t (1 : Fin 3) * 1 + 1 * 0 = 0; omega
    | ⟨2, _⟩ => show win0_1.index t (2 : Fin 3) * 512 + 1 * (j 2).val = win0_2.index t (2 : Fin 3) * 512 + 1 * (j 2).val; omega
  rw [h0, h1]

/-- An entry of the output array is in point `t`'s block iff each of its coordinates is in the block's range. -/
theorem mem_blk (t : Fin cfg0.N) (i : S64x2000x512.Idx) :
    i ∈ ((cfg0.win 2).blk t).view.set ↔ ∀ a : Fin 3, win0_2.index t a * S2x2000x512.size a ≤ (i a).val
      ∧ (i a).val < win0_2.index t a * S2x2000x512.size a + S2x2000x512.size a := by
  show i ∈ ((View.whole main_v17).slice (win0_2.rect t)).set ↔ _
  rw [View.set_slice_whole, Rect.mem_set_unit]
  exact Iff.rfl

/-- The blocks cover the array: entry (b, t', f) is in the block of point b / 2. -/
theorem cover (i : S64x2000x512.Idx) :
    ∃ t : Fin cfg0.N, (cfg0.win 2).flush t = true ∧ i ∈ ((cfg0.win 2).blk t).view.set := by
  have hi0 : (i 0).val < 64 := (i 0).isLt
  have hi1 : (i 1).val < 2000 := (i 1).isLt
  have hi2 : (i 2).val < 512 := (i 2).isLt
  obtain ⟨t, ht⟩ := idx_onto ⟨(i 0).val / 2, by omega⟩
  have q0 : win0_2.index t (0 : Fin 3) = (i 0).val / 2 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 2000 ≤ (i 1).val ∧ (i 1).val < win0_2.index t (1 : Fin 3) * 2000 + 2000; omega
  | ⟨2, _⟩ => show win0_2.index t (2 : Fin 3) * 512 ≤ (i 2).val ∧ (i 2).val < win0_2.index t (2 : Fin 3) * 512 + 512; omega

/-- The output array after the run: the masked batch of the launch contents of `x` and the reference's keep row of the
    launch contents of `bgn` and `distance`. -/
theorem final (c : Dev nD) :
    (dats m 0 c).arrAt 2 cfg0.N
      = masked (m ((c : Thread nD τ).loc main_arg0))
          (Cert.ReferenceIdeal.Read.val_main_v16 (F := F) (m ((c : Thread nD τ).loc main_arg1)) (m ((c : Thread nD τ).loc main_arg2))) :=
  ((dats m 0 c).arrAt_eq_of_cover 2 (masked (V m c main_arg0) (V m c main_v16)) (fun t _ => flushed_eq m c t) cover).trans
    (congrArg₂ masked (V_main_arg0 m c) (Cert.KernelIdeal.Row.entry_row m c))

/-- The kernel's run, read: every weakly fair execution terminates with the result array at the masked batch and the
    three arguments as launched. -/
theorem run : θ_run defs (onTc (τ := τ) (main (F := F))) ⟨m, fun _ => 0, ρ⟩ fun r => ∀ c : Dev nD,
      r.2.mem ((c : Thread nD τ).loc main_v17)
        = masked (m ((c : Thread nD τ).loc main_arg0))
            (Cert.ReferenceIdeal.Read.val_main_v16 (F := F) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Masked

end
-- ==== Proof.lean ====
/-
  Dropping frequency stripes from a batch of spectrograms: the kernel against its reference, on the extended reals.

  Both programs take a batch `x` (64 × 2000 × 512) and, per batch element, two stripes of frequency bins given by a
  start `bgn` and a width `distance` (64 × 2 each).  Both first compute, with the same integer operations, which bins
  of which batch element survive — bin f of batch element b survives when neither stripe [bgn, bgn + distance) of b
  contains f — and turn the answer into a weight 1 or 0.  The reference spreads the weights over the time axis and
  multiplies the whole batch by them; the kernel's program lays the weights out as a 64 × 1 × 512 row and lets a
  region of 32 grid points multiply two batch elements at a time by their two rows of weights.

  So both results are ONE function of the arguments: entry (b, t, f) of `x` times the weight of (b, f)
  (Proof/Stripes.lean, `masked`).  The reference's result is that function of its keep row (Proof/RefMasked.lean); the
  array the kernel's region reads its weights from is the same keep row (Proof/KernelRow.lean: converting to floats
  before or after the re-layout is the same); the region's 32 blocks are the blocks of that function and cover the
  output (Proof/KernelBlocks.lean).  No law of the extended reals is needed — the two sides are the same product
  of the same factors — so the precondition (finite entries of `x`) is never opened.

  The idealization rewrote no operation of the kernel, so there is nothing to preserve beyond the program's own text.
  The three frames are the generated ones: the two kernels' class-A frames, and the reference's run with its result
  dropped.
-/
import proofs.«115708_j72507637891182_1_alg».proof.Defs
import proofs.«115708_j72507637891182_1_alg».proof.Proof.Gen.Kernel
import proofs.«115708_j72507637891182_1_alg».proof.Proof.Gen.Kernel.Skeleton
import proofs.«115708_j72507637891182_1_alg».proof.Proof.Gen.Kernel.Launch
import proofs.«115708_j72507637891182_1_alg».proof.Proof.Gen.Kernel.Points
import proofs.«115708_j72507637891182_1_alg».proof.Proof.Gen.Kernel.Frame
import proofs.«115708_j72507637891182_1_alg».proof.Proof.Gen.KernelIdeal
import proofs.«115708_j72507637891182_1_alg».proof.Proof.Gen.KernelIdeal.Skeleton
import proofs.«115708_j72507637891182_1_alg».proof.Proof.Gen.KernelIdeal.Launch
import proofs.«115708_j72507637891182_1_alg».proof.Proof.Gen.KernelIdeal.Points
import proofs.«115708_j72507637891182_1_alg».proof.Proof.Gen.KernelIdeal.Frame
import proofs.«115708_j72507637891182_1_alg».proof.Proof.Gen.ReferenceIdeal
import proofs.«115708_j72507637891182_1_alg».proof.Proof.Gen.Pre_finite_inputs
import proofs.«115708_j72507637891182_1_alg».proof.Proof.Gen.KernelIdeal.Value
import proofs.«115708_j72507637891182_1_alg».proof.Proof.Gen.ReferenceIdeal.Run
import proofs.«115708_j72507637891182_1_alg».proof.Proof.Gen.ReferenceIdeal.Read
import proofs.«115708_j72507637891182_1_alg».proof.Proof.Stripes
import proofs.«115708_j72507637891182_1_alg».proof.Proof.RefMasked
import proofs.«115708_j72507637891182_1_alg».proof.Proof.KernelRow
import proofs.«115708_j72507637891182_1_alg».proof.Proof.KernelBlocks
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten, so nothing is owed. -/
theorem preserves : Cert.preserves_Kernel_KernelIdeal := trivial

/-- From arguments that agree, the kernel's output array and the reference's result are both the masked batch of `x`
    and the keep row of `bgn` and `distance`. -/
theorem algebraic : Cert.algebraic_KernelIdeal_ReferenceIdeal := by
  intro m ρ m' ρ' _ hagree
  refine ⟨_, Cert.KernelIdeal.Masked.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v18_eq _ _ _).trans (Cert.ReferenceIdeal.Masked.result_eq _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
